-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S800000 32) (main_arg2 : IVec S800000 32) (main_arg3 : FVec F S256x256 .f32) (main_arg4 : FVec F S256 .f32) (main_arg5 : FVec F S256x128 .f32) (main_arg6 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x256 : Shape := ⟨2, ![1, 256]⟩
abbrev S1x128 : Shape := ⟨2, ![1, 128]⟩
abbrev S2000x256 : Shape := ⟨2, ![2000, 256]⟩
abbrev S2000x1 : Shape := ⟨2, ![2000, 1]⟩
abbrev S850000x256 : Shape := ⟨2, ![850000, 256]⟩
abbrev S50000x128 : Shape := ⟨2, ![50000, 128]⟩
abbrev S2000x128 : Shape := ⟨2, ![2000, 128]⟩
abbrev S850000x128 : Shape := ⟨2, ![850000, 128]⟩

abbrev nBuf : Space → Nat
  | .hbm => 65
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S850000, .i32⟩
  | .hbm, ⟨9, _⟩ => ⟨S850000, .i32⟩
  | .hbm, ⟨10, _⟩ => ⟨S_, .f32⟩
  | .hbm, ⟨11, _⟩ => ⟨S850000, .f32⟩
  | .hbm, ⟨12, _⟩ => ⟨S_, .f32⟩
  | .hbm, ⟨13, _⟩ => ⟨S50000, .f32⟩
  | .hbm, ⟨14, _⟩ => ⟨S850000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S1x256, .f32⟩
  | .hbm, ⟨31, _⟩ => ⟨S1x128, .f32⟩
  | .hbm, ⟨32, _⟩ => ⟨S256x256, .bf16⟩
  | .hbm, ⟨33, _⟩ => ⟨S256x128, .bf16⟩
  | .hbm, ⟨34, _⟩ => ⟨S50000x256, .bf16⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000x256, .bf16⟩
  | .hbm, ⟨44, _⟩ => ⟨S850000x256, .f32⟩
  | .hbm, ⟨45, _⟩ => ⟨S_, .f32⟩
  | .hbm, ⟨46, _⟩ => ⟨S50000x256, .f32⟩
  | .hbm, ⟨47, _⟩ => ⟨S850000x1, .i32⟩
  | .hbm, ⟨48, _⟩ => ⟨S50000x256, .f32⟩
  | .hbm, ⟨49, _⟩ => ⟨S50000x128, .bf16⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .bf16⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x128, .bf16⟩
  | .local _ .vmem, ⟨13, _⟩ => ⟨S2000x1, .f32⟩
  | .local _ .vmem, ⟨14, _⟩ => ⟨S2000x1, .f32⟩
  | .local _ .vmem, ⟨15, _⟩ => ⟨S2000x128, .bf16⟩
  | .local _ .vmem, ⟨16, _⟩ => ⟨S2000x128, .bf16⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S256_S1x256 : S256.ShapeCasts S1x256
  shapeCasts_S128_S1x128 : S128.ShapeCasts S1x128
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v34) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S850000, .i32⟩
  | .hbm, ⟨9, _⟩ => ⟨S850000, .i32⟩
  | .hbm, ⟨10, _⟩ => ⟨S_, .f32⟩
  | .hbm, ⟨11, _⟩ => ⟨S850000, .f32⟩
  | .hbm, ⟨12, _⟩ => ⟨S_, .f32⟩
  | .hbm, ⟨13, _⟩ => ⟨S50000, .f32⟩
  | .hbm, ⟨14, _⟩ => ⟨S850000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x256, .f32⟩
  | .hbm, ⟨29, _⟩ => ⟨S50000x1, .f32⟩
  | .hbm, ⟨30, _⟩ => ⟨S50000x256, .f32⟩
  | .hbm, ⟨31, _⟩ => ⟨S50000x256, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x256, .f32⟩
  | .hbm, ⟨41, _⟩ => ⟨S_, .f32⟩
  | .hbm, ⟨42, _⟩ => ⟨S50000x256, .f32⟩
  | .hbm, ⟨43, _⟩ => ⟨S850000x1, .i32⟩
  | .hbm, ⟨44, _⟩ => ⟨S50000x256, .f32⟩
  | .hbm, ⟨45, _⟩ => ⟨S50000x1, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_cst : Ref sig .tc := ⟨.hbm, 51, rfl⟩
abbrev main_call0_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_6 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call1_cst : Ref sig .tc := ⟨.hbm, 77, rfl⟩
abbrev main_call1_v0 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.

  The program is three pipelined kernels among stretches of host operations. Every weakly fair execution terminates
  without a fault, and the final memory holds, at every buffer that outlives the kernels, the contents obtained by
  folding the segments over the launch memory: a host stretch applies its operations in order, a kernel leaves each
  of its output arrays at what its blocks wrote back and every other buffer as it found it. The statement below
  keeps, of that final memory, the result buffer (at the fold's value there) and the argument buffers (unchanged).
-/
import proofs.«143110_j52853867544720_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's contents, the arguments as launched. -/
theorem run_named : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Run

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibGcnRows.lean ====
/-
  The row operations of a graph-convolution layer on arrays of extended reals, and what a row block of each holds.

  For an array `a` of `R` rows, a column `s` of `R` scales and a row `b` of biases:
  * `scaleRows a s` multiplies row `r` of `a` by `s r`;
  * `biased a s b` is `a (r, k) · s r + b k`, the normalised aggregate plus the bias;
  * `positive a` is the entrywise maximum with zero.
  A layer's transform is `rowsByCols (scaleRows h s) w`, the product of the scaled rows with the weights.

  Every one of these is computed row by row: entry `(r, k)` of the result reads row `r` of the array operands only
  (and the whole bias row, the whole weight matrix). So a block of rows computed from the same block of rows of the
  operands is that block of rows of the whole result (`…_rows`). Nothing here needs an entry to be finite: no sum
  is re-associated against a product, a product of rows by columns is one finite sum in either arrangement.
-/
import Idealize.ShloMosaic.Lib.Pipeline.Value
import Idealize.ShloMosaic.Lib.ValueIdx
import Idealize.ShloMosaic.PureOps.Ideal.Laws
import proofs.«143110_j52853867544720_2_alg».proof.Proof.LibPlainProduct
import proofs.«143110_j52853867544720_2_alg».proof.Proof.LibLayout

noncomputable section

open scoped BigOperators

namespace Cert.GcnRows

open Idealize.ShloMosaic Idealize.ShloMosaic.ValueIdx Idealize.ShloMosaic.PlainProduct

variable {R B K N : ℕ}

/-- The zero of single precision, as the programs spell it. -/
abbrev zero32 : Ideal .f32 := FloatOps.ofBits .f32 0x00000000#32

/-- Row `r` multiplied by the `r`-th entry of the column `s`. -/
def scaleRows (a : FVec Ideal ⟨2, ![R, K]⟩ .f32) (s : FVec Ideal ⟨2, ![R, 1]⟩ .f32) : FVec Ideal ⟨2, ![R, K]⟩ .f32 :=
  fun j => a j * s (ix2 (n0 := R) (n1 := 1) (j 0) 0)

/-- Row `r` multiplied by the `r`-th entry of the column `s`, plus the bias row. -/
def biased (a : FVec Ideal ⟨2, ![R, K]⟩ .f32) (s : FVec Ideal ⟨2, ![R, 1]⟩ .f32) (b : FVec Ideal ⟨2, ![1, K]⟩ .f32) :
    FVec Ideal ⟨2, ![R, K]⟩ .f32 :=
  fun j => a j * s (ix2 (n0 := R) (n1 := 1) (j 0) 0) + b (ix2 (n0 := 1) (n1 := K) 0 (j 1))

/-- The entrywise maximum with zero. -/
def positive (a : FVec Ideal ⟨2, ![R, K]⟩ .f32) : FVec Ideal ⟨2, ![R, K]⟩ .f32 :=
  fun j => max (a j) zero32

/-- A row `[1, b]` broadcast to `[a, b]` reads, at `(i, j)`, the row's entry of column `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-! ## What the kernel bodies compute from their blocks -/

/-- The column broadcast along the rows, times the block: the scaled rows. -/
theorem mulf_column (a : FVec Ideal ⟨2, ![R, K]⟩ .f32) (s : FVec Ideal ⟨2, ![R, 1]⟩ .f32)
    (h1 : (⟨2, ![R, 1]⟩ : Shape).ShapeCasts ⟨2, ![R, 1]⟩) (h2 : (⟨2, ![R, 1]⟩ : Shape).Broadcasts ⟨2, ![R, K]⟩) :
    mulf a (broadcastTo ⟨2, ![R, K]⟩ (shapeCast ⟨2, ![R, 1]⟩ s h1) h2) = scaleRows a s := by
  funext j
  obtain ⟨p, q, rfl⟩ : ∃ (p : Fin R) (q : Fin K), j = ix2 p q := ⟨j 0, j 1, eq_ix2 j⟩
  rw [shapeCast_self, mulf_apply, Cert.LibLayout.broadcastTo_a1_ab_apply]
  rfl

/-- … and with the bias row broadcast along the columns added: the biased rows. -/
theorem addf_row (a : FVec Ideal ⟨2, ![R, K]⟩ .f32) (s : FVec Ideal ⟨2, ![R, 1]⟩ .f32) (b : FVec Ideal ⟨2, ![1, K]⟩ .f32)
    (h1 : (⟨2, ![R, 1]⟩ : Shape).ShapeCasts ⟨2, ![R, 1]⟩) (h2 : (⟨2, ![R, 1]⟩ : Shape).Broadcasts ⟨2, ![R, K]⟩)
    (h0 : (⟨2, ![R, K]⟩ : Shape).ShapeCasts ⟨2, ![R, K]⟩)
    (h3 : (⟨2, ![1, K]⟩ : Shape).ShapeCasts ⟨2, ![1, K]⟩) (h4 : (⟨2, ![1, K]⟩ : Shape).Broadcasts ⟨2, ![R, K]⟩) :
    addf (mulf (shapeCast ⟨2, ![R, K]⟩ a h0) (broadcastTo ⟨2, ![R, K]⟩ (shapeCast ⟨2, ![R, 1]⟩ s h1) h2))
        (broadcastTo ⟨2, ![R, K]⟩ (shapeCast ⟨2, ![1, K]⟩ b h3) h4) = biased a s b := by
  funext j
  obtain ⟨p, q, rfl⟩ : ∃ (p : Fin R) (q : Fin K), j = ix2 p q := ⟨j 0, j 1, eq_ix2 j⟩
  rw [shapeCast_self, shapeCast_self, shapeCast_self, addf_apply, mulf_apply, Cert.LibLayout.broadcastTo_a1_ab_apply,
    broadcastTo_1b_ab_apply]
  rfl

/-- The maximum with the zero scalar repeated over the block: the positive part. -/
theorem maximumf_zero (a : FVec Ideal ⟨2, ![R, K]⟩ .f32) :
    maximumf a (broadcast ⟨2, ![R, K]⟩ (Scalar.ofBits (F := Ideal) .f32 0x00000000#32)) = positive a := rfl

/-- The product of a block (its format narrowed, which changes nothing on the extended reals) with the weights, into
    the zero accumulator: the block's rows by the weights' columns. -/
theorem matmul_block {φ : FTy} (x : FVec Ideal ⟨2, ![R, K]⟩ .f32) (w : FVec Ideal ⟨2, ![K, N]⟩ φ) (hb : FTy.bf16.bits < FTy.f32.bits)
    (h3 : (⟨2, ![K, N]⟩ : Shape).ShapeCasts ⟨2, ![K, N]⟩) :
    matmul (DotDims.plain R K N) none (truncf .bf16 x hb) (shapeCast ⟨2, ![K, N]⟩ w h3) (constant ⟨2, ![R, N]⟩ .f32 0x00000000#32)
      = rowsByCols x w := by
  rw [shapeCast_self]
  exact matmul_zero_plain none (truncf .bf16 x hb) w

/-! ## Row blocks -/

section Rows

variable (e : Fin B → Fin R)

theorem scaleRows_rows (a : FVec Ideal ⟨2, ![R, K]⟩ .f32) (s : FVec Ideal ⟨2, ![R, 1]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (r : Fin B) (k : Fin K) :
    scaleRows ab sb (ix2 (n0 := B) (n1 := K) r k) = scaleRows a s (ix2 (n0 := R) (n1 := K) (e r) k) :=
  congrArg₂ (· * ·) (ha r k) (hs r)

theorem biased_rows (a : FVec Ideal ⟨2, ![R, K]⟩ .f32) (s : FVec Ideal ⟨2, ![R, 1]⟩ .f32) (b : FVec Ideal ⟨2, ![1, K]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (r : Fin B) (k : Fin K) :
    biased ab sb b (ix2 (n0 := B) (n1 := K) r k) = biased a s b (ix2 (n0 := R) (n1 := K) (e r) k) :=
  congrArg₂ (· + ·) (congrArg₂ (· * ·) (ha r k) (hs r)) rfl

theorem positive_rows (a : FVec Ideal ⟨2, ![R, K]⟩ .f32) (ab : FVec Ideal ⟨2, ![B, K]⟩ .f32)
    (ha : ∀ (r : Fin B) (k : Fin K), ab (ix2 (n0 := B) (n1 := K) r k) = a (ix2 (n0 := R) (n1 := K) (e r) k))
    (r : Fin B) (k : Fin K) :
    positive ab (ix2 (n0 := B) (n1 := K) r k) = positive a (ix2 (n0 := R) (n1 := K) (e r) k) :=
  congrArg (max · zero32) (ha r k)

/-- The same three laws read at any index `j` of the block: its row is `j 0`, its column `j 1`. -/
theorem scaleRows_block (a : FVec Ideal ⟨2, ![R, K]⟩ .f32) (s : FVec Ideal ⟨2, ![R, 1]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (j : (⟨2, ![B, K]⟩ : Shape).Idx) :
    scaleRows ab sb j = scaleRows a s (ix2 (n0 := R) (n1 := K) (e (j 0)) (j 1)) :=
  (congrArg (scaleRows ab sb) (eq_ix2 j)).trans (scaleRows_rows e a s ab sb ha hs (j 0) (j 1))

theorem biased_block (a : FVec Ideal ⟨2, ![R, K]⟩ .f32) (s : FVec Ideal ⟨2, ![R, 1]⟩ .f32) (b : FVec Ideal ⟨2, ![1, K]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (j : (⟨2, ![B, K]⟩ : Shape).Idx) :
    biased ab sb b j = biased a s b (ix2 (n0 := R) (n1 := K) (e (j 0)) (j 1)) :=
  (congrArg (biased ab sb b) (eq_ix2 j)).trans (biased_rows e a s b ab sb ha hs (j 0) (j 1))

end Rows

/-! ## A vector as a column, a vector as a row -/

/-- The vector `v` as the column `[n, 1]`. -/
def col {n : ℕ} (v : FVec Ideal ⟨1, ![n]⟩ .f32) : FVec Ideal ⟨2, ![n, 1]⟩ .f32 := fun i => v (ix1 (n := n) (i 0))

/-- The vector `b` as the row `[1, k]`. -/
def rowv {k : ℕ} (b : FVec Ideal ⟨1, ![k]⟩ .f32) : FVec Ideal ⟨2, ![1, k]⟩ .f32 := fun i => b (ix1 (n := k) (i 1))

end Cert.GcnRows

end
-- ==== Proof.LibGcnNet.lean ====
/-
  A two-layer graph convolution on arrays of extended reals, as a function of its dense parts.

  One layer is `activate (agg (transform x w s)) d b`:
  * `transform x w s` is the product of the features with the weights, row `r` multiplied by the source
    normaliser `s r` (a column);
  * `agg` sums, for every node, the transformed rows of its in-neighbours (a gather of rows followed by a
    scatter-add); here it is an arbitrary map on arrays, because both programs apply the same one;
  * `activate a d b` multiplies row `r` of the aggregate by the destination normaliser `d r`, adds the bias row
    and takes the positive part.
  `net` composes two such layers. The second layer's transform and the first layer's activation are computed row by
  row, so a block of rows of either is computed from the same block of rows of its array operands
  (`transform_block`, `activate_block`, `fused_block`): a product is one finite sum of products in either
  arrangement, and nothing here needs an entry to be finite.
-/
import proofs.«143110_j52853867544720_2_alg».proof.Proof.LibGcnRows

noncomputable section

open scoped BigOperators

namespace Cert.GcnNet

open Idealize.ShloMosaic Idealize.ShloMosaic.ValueIdx Idealize.ShloMosaic.PlainProduct Cert.GcnRows

variable {R B K N : ℕ} {φ φ₀ φ₁ : FTy}

/-- The features times the weights, row `r` scaled by `s r`. -/
def transform (x : FVec Ideal ⟨2, ![R, K]⟩ .f32) (w : FVec Ideal ⟨2, ![K, N]⟩ φ) (s : FVec Ideal ⟨2, ![R, 1]⟩ .f32) :
    FVec Ideal ⟨2, ![R, N]⟩ .f32 :=
  scaleRows (rowsByCols x w) s

/-- Row `r` of the aggregate scaled by `d r`, plus the bias row, positive part. -/
def activate (a : FVec Ideal ⟨2, ![R, K]⟩ .f32) (d : FVec Ideal ⟨2, ![R, 1]⟩ .f32) (b : FVec Ideal ⟨2, ![1, K]⟩ .f32) :
    FVec Ideal ⟨2, ![R, K]⟩ .f32 :=
  positive (biased a d b)

/-- Two layers: `agg0` and `agg1` are the neighbourhood sums of the first and of the second layer. -/
def net (agg0 : FVec Ideal ⟨2, ![R, K]⟩ .f32 → FVec Ideal ⟨2, ![R, K]⟩ .f32)
    (agg1 : FVec Ideal ⟨2, ![R, N]⟩ .f32 → FVec Ideal ⟨2, ![R, N]⟩ .f32)
    (s d : FVec Ideal ⟨2, ![R, 1]⟩ .f32)
    (x : FVec Ideal ⟨2, ![R, B]⟩ .f32) (w0 : FVec Ideal ⟨2, ![B, K]⟩ φ₀) (b0 : FVec Ideal ⟨2, ![1, K]⟩ .f32)
    (w1 : FVec Ideal ⟨2, ![K, N]⟩ φ₁) (b1 : FVec Ideal ⟨2, ![1, N]⟩ .f32) : FVec Ideal ⟨2, ![R, N]⟩ .f32 :=
  activate (agg1 (transform (activate (agg0 (transform x w0 s)) d b0) w1 s)) d b1

section Blocks

variable (e : Fin B → Fin R)

/-- Rows `e r` of a transform are the transform of rows `e r` of the features and of the normaliser. -/
theorem transform_block (x : FVec Ideal ⟨2, ![R, K]⟩ .f32) (w : FVec Ideal ⟨2, ![K, N]⟩ φ) (s : FVec Ideal ⟨2, ![R, 1]⟩ .f32)
    (xb : FVec Ideal ⟨2, ![B, K]⟩ .f32) (sb : FVec Ideal ⟨2, ![B, 1]⟩ .f32)
    (hx : ∀ (r : Fin B) (k : Fin K), xb (ix2 (n0 := B) (n1 := K) r k) = x (ix2 (n0 := R) (n1 := K) (e r) k))
    (hs : ∀ r : Fin B, sb (ix2 (n0 := B) (n1 := 1) r 0) = s (ix2 (n0 := R) (n1 := 1) (e r) 0))
    (j : (⟨2, ![B, N]⟩ : Shape).Idx) :
    transform xb w sb j = transform x w s (ix2 (n0 := R) (n1 := N) (e (j 0)) (j 1)) :=
  scaleRows_block e (rowsByCols x w) s (rowsByCols xb w) sb
    (fun r k => rowsByCols_rows x w xb e hx (ix2 (n0 := B) (n1 := N) r k)) hs j

/-- Rows `e r` of an activation are the activation of rows `e r` of the aggregate and of the normaliser. -/
theorem activate_rows (a : FVec Ideal ⟨2, ![R, K]⟩ .f32) (d : FVec Ideal ⟨2, ![R, 1]⟩ .f32) (b : FVec Ideal ⟨2, ![1, K]⟩ .f32)
    (ab : FVec Ideal ⟨2, ![B, K]⟩ .f32) (db : FVec Ideal ⟨2, ![B, 1]⟩ .f32)
    (ha : ∀ (r : Fin B) (k : Fin K), ab (ix2 (n0 := B) (n1 := K) r k) = a (ix2 (n0 := R) (n1 := K) (e r) k))
    (hd : ∀ r : Fin B, db (ix2 (n0 := B) (n1 := 1) r 0) = d (ix2 (n0 := R) (n1 := 1) (e r) 0))
    (r : Fin B) (k : Fin K) :
    activate ab db b (ix2 (n0 := B) (n1 := K) r k) = activate a d b (ix2 (n0 := R) (n1 := K) (e r) k) :=
  positive_rows e (biased a d b) (biased ab db b) (fun r k => biased_rows e a d b ab db ha hd r k) r k

theorem activate_block (a : FVec Ideal ⟨2, ![R, K]⟩ .f32) (d : FVec Ideal ⟨2, ![R, 1]⟩ .f32) (b : FVec Ideal ⟨2, ![1, K]⟩ .f32)
    (ab : FVec Ideal ⟨2, ![B, K]⟩ .f32) (db : FVec Ideal ⟨2, ![B, 1]⟩ .f32)
    (ha : ∀ (r : Fin B) (k : Fin K), ab (ix2 (n0 := B) (n1 := K) r k) = a (ix2 (n0 := R) (n1 := K) (e r) k))
    (hd : ∀ r : Fin B, db (ix2 (n0 := B) (n1 := 1) r 0) = d (ix2 (n0 := R) (n1 := 1) (e r) 0))
    (j : (⟨2, ![B, K]⟩ : Shape).Idx) :
    activate ab db b j = activate a d b (ix2 (n0 := R) (n1 := K) (e (j 0)) (j 1)) :=
  (congrArg (activate ab db b) (eq_ix2 j)).trans (activate_rows e a d b ab db ha hd (j 0) (j 1))

/-- An activation followed by the next layer's transform, on a block of rows. -/
theorem fused_block (a : FVec Ideal ⟨2, ![R, K]⟩ .f32) (d : FVec Ideal ⟨2, ![R, 1]⟩ .f32) (b : FVec Ideal ⟨2, ![1, K]⟩ .f32)
    (w : FVec Ideal ⟨2, ![K, N]⟩ φ) (s : FVec Ideal ⟨2, ![R, 1]⟩ .f32)
    (ab : FVec Ideal ⟨2, ![B, K]⟩ .f32) (db sb : FVec Ideal ⟨2, ![B, 1]⟩ .f32)
    (ha : ∀ (r : Fin B) (k : Fin K), ab (ix2 (n0 := B) (n1 := K) r k) = a (ix2 (n0 := R) (n1 := K) (e r) k))
    (hd : ∀ r : Fin B, db (ix2 (n0 := B) (n1 := 1) r 0) = d (ix2 (n0 := R) (n1 := 1) (e r) 0))
    (hs : ∀ r : Fin B, sb (ix2 (n0 := B) (n1 := 1) r 0) = s (ix2 (n0 := R) (n1 := 1) (e r) 0))
    (j : (⟨2, ![B, N]⟩ : Shape).Idx) :
    transform (activate ab db b) w sb j = transform (activate a d b) w s (ix2 (n0 := R) (n1 := N) (e (j 0)) (j 1)) :=
  transform_block e (activate a d b) w s (activate ab db b) sb (activate_rows e a d b ab db ha hd) hs j

end Blocks

end Cert.GcnNet

end
-- ==== Proof.Region0.lean ====
/-
  The first kernel: blocks of 2000 rows of `(x · W) · s`, and the whole array they make.

  At grid point `t` the kernel reads rows `2000 t … 2000 t + 1999` of the features and of the normaliser column,
  the whole weight matrix, and writes the same rows of its output. What it writes is the transform of the rows it
  read; since a row of a transform depends on the same row of the features and of the normaliser only, the block
  written at `t` is block `t` of the transform of the whole arrays, and the 25 blocks fill the 50000 rows.
-/
import proofs.«143110_j52853867544720_2_alg».proof.Proof.Gen.KernelIdeal.Frame
import proofs.«143110_j52853867544720_2_alg».proof.Proof.LibGcnNet
import Idealize.ShloMosaic.Lib.Pipeline.Value

set_option maxRecDepth 16384

noncomputable section

namespace Cert.KernelIdeal.Region0

open Cert.KernelIdeal Cert.KernelIdeal.Gen Cert.GcnNet Cert.GcnRows
open Idealize.ShloMosaic Idealize.ShloMosaic.TcCoe Idealize.ShloMosaic.ValueIdx Idealize.ShloMosaic.PlainProduct Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its three blocks is the transform of the blocks: the narrowing of a format changes
    nothing on the extended reals, the matrix unit's product into a zero accumulator is the product rows by columns,
    and the column repeated along the rows scales row `r` by its `r`-th entry. -/
theorem body_eq (x0 : Vec Ideal S2000x256 .f32) (x1 : Vec Ideal S256x256 .bf16) (x2 : Vec Ideal S2000x1 .f32) :
    k0_pay1 (F := Ideal) x0 x1 x2 = transform (R := 2000) (K := 256) (N := 256) (φ := .bf16) x0 x1 x2 := by
  have h1 := matmul_block (R := 2000) (K := 256) (N := 256) (φ := .bf16) x0 x1 bitsLt_bf16_f32 shapeCasts_S256x256_S256x256
  have h2 := mulf_column (R := 2000) (K := 256) (rowsByCols (φ₁ := .f32) (φ₂ := .bf16) x0 x1) x2 shapeCasts_S2000x1_S2000x1 broadcasts_S2000x1_S2000x256
  unfold transform
  rw [← h2, ← h1]
  rfl

/-- Where each window's block sits at point `t`: the row windows at block row `t`, the weights whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt_N (t : Fin cfg0.N) : t.val < 25 := by
  exact lt_of_lt_of_eq t.isLt N_0

/-- Row `r` of block `t` is row `2000 t + r` of the array. -/
def rowOf (t : Fin cfg0.N) (r : Fin 2000) : Fin 50000 := ⟨t.val * 2000 + r.val, by have := lt_N t; have := r.isLt; omega⟩

/-- What point `t` writes back is block `t` of the transform of the arrays the kernel finds. -/
theorem flushed_eq (c : Dev nD) (t : Fin cfg0.N) :
    (dat0 V c).flushed 3 t = ((cfg0.win 3).blk t).view.read (Elt Ideal)
      (transform (R := 50000) (K := 256) (N := 256) (φ := .bf16) (V c main_arg0) (V c main_v20) (V c main_v13)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S2000x1) hz]
  rw [body_eq]
  obtain ⟨e0, e1, e2, e3, e4, e5, e6, e7⟩ := idx_facts t
  have hw : iblk0 V c 1 t = V c main_v20 := by
    funext y
    show V c main_v20 (((cfg0.win 1).blk t).view.emb y) = V c main_v20 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  rw [hw]
  funext j
  show transform (R := 2000) (K := 256) (N := 256) (φ := .bf16) (iblk0 V c 0 t) (V c main_v20) (iblk0 V c 2 t) j
    = transform (R := 50000) (K := 256) (N := 256) (φ := .bf16) (V c main_arg0) (V c main_v20) (V c main_v13) (((cfg0.win 3).blk t).view.emb j)
  have hj : ((cfg0.win 3).blk t).view.emb j = ix2 (n0 := 50000) (n1 := 256) (rowOf t (j 0)) (j 1) := by
    funext a; apply Fin.ext
    match a with
    | ⟨0, _⟩ => show win0_3.index t (0 : Fin 2) * 2000 + 1 * (j 0).val = t.val * 2000 + (j 0).val; omega
    | ⟨1, _⟩ => show win0_3.index t (1 : Fin 2) * 256 + 1 * (j 1).val = (j 1).val; omega
  rw [hj]
  refine transform_block (φ := .bf16) (rowOf t) (V c main_arg0) (V c main_v20) (V c main_v13) (iblk0 V c 0 t) (iblk0 V c 2 t) ?_ ?_ j
  · intro r k
    show V c main_arg0 (((cfg0.win 0).blk t).view.emb (ix2 (n0 := 2000) (n1 := 256) r k)) = _
    refine congrArg _ (funext fun a => Fin.ext ?_)
    match a with
    | ⟨0, _⟩ => show win0_0.index t (0 : Fin 2) * 2000 + 1 * r.val = t.val * 2000 + r.val; omega
    | ⟨1, _⟩ => show win0_0.index t (1 : Fin 2) * 256 + 1 * k.val = k.val; omega
  · intro r
    show V c main_v13 (((cfg0.win 2).blk t).view.emb (ix2 (n0 := 2000) (n1 := 1) r 0)) = _
    refine congrArg _ (funext fun a => Fin.ext ?_)
    match a with
    | ⟨0, _⟩ => show win0_2.index t (0 : Fin 2) * 2000 + 1 * r.val = t.val * 2000 + r.val; omega
    | ⟨1, _⟩ => show win0_2.index t (1 : Fin 2) * 1 + 1 * 0 = 0; omega

/-- An index of the output array is in point `t`'s block iff each coordinate is in the block's range. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v22).slice (win0_3.rect t)).set ↔ _
  rw [View.set_slice_whole, Rect.mem_set_unit]
  exact Iff.rfl

/-- Every row lies in the block of the point `row / 2000`. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 2000, by rw [show cfg0.N = 25 from N_0]; omega⟩
  obtain ⟨e0, e1, e2, e3, e4, e5, e6, e7⟩ := idx_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after the kernel: the transform of the arrays it found. -/
theorem final (c : Dev nD) :
    (dat0 V c).arrAt 3 cfg0.N = transform (R := 50000) (K := 256) (N := 256) (φ := .bf16) (V c main_arg0) (V c main_v20) (V c main_v13) :=
  (dat0 V c).arrAt_eq_of_cover 3 _ (fun t _ => flushed_eq V c t) cover

end Cert.KernelIdeal.Region0

end
-- ==== Proof.Region1.lean ====
/-
  The second kernel: blocks of 2000 rows of `(max (a · d + b, 0) · W) · s`, and the whole array they make.

  At grid point `t` the kernel reads rows `2000 t … 2000 t + 1999` of the aggregate and of the two normaliser
  columns, the whole bias row and the whole weight matrix, and writes the same rows of its output: the activation of
  the rows it read, times the weights, scaled. Each of the three steps is computed row by row, so the block written
  at `t` is block `t` of the same expression of the whole arrays, and the 25 blocks fill the 50000 rows.
-/
import proofs.«143110_j52853867544720_2_alg».proof.Proof.Gen.KernelIdeal.Frame
import proofs.«143110_j52853867544720_2_alg».proof.Proof.LibGcnNet
import Idealize.ShloMosaic.Lib.Pipeline.Value

set_option maxRecDepth 16384

noncomputable section

namespace Cert.KernelIdeal.Region1

open Cert.KernelIdeal Cert.KernelIdeal.Gen Cert.GcnNet Cert.GcnRows
open Idealize.ShloMosaic Idealize.ShloMosaic.TcCoe Idealize.ShloMosaic.ValueIdx Idealize.ShloMosaic.PlainProduct Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its five blocks: the activation of the aggregate's rows (scaled, biased, positive part),
    then the transform with the weights and the source normaliser. -/
theorem body_eq (x0 : Vec Ideal S2000x256 .f32) (x1 : Vec Ideal S2000x1 .f32) (x2 : Vec Ideal S1x256 .f32)
    (x3 : Vec Ideal S256x128 .bf16) (x4 : Vec Ideal S2000x1 .f32) :
    k1_pay1 (F := Ideal) x0 x1 x2 x3 x4
      = transform (R := 2000) (K := 256) (N := 128) (φ := .bf16) (activate (R := 2000) (K := 256) x0 x1 x2) x3 x4 := by
  have h1 := addf_row (R := 2000) (K := 256) x0 x1 x2 shapeCasts_S2000x1_S2000x1 broadcasts_S2000x1_S2000x256
    shapeCasts_S2000x256_S2000x256 shapeCasts_S1x256_S1x256 broadcasts_S1x256_S2000x256
  have h2 := maximumf_zero (R := 2000) (K := 256) (biased x0 x1 x2)
  have h3 := matmul_block (R := 2000) (K := 256) (N := 128) (φ := .bf16) (positive (biased x0 x1 x2)) x3 bitsLt_bf16_f32
    shapeCasts_S256x128_S256x128
  have h4 := mulf_column (R := 2000) (K := 128)
    (rowsByCols (φ₁ := .f32) (φ₂ := .bf16) (positive (biased (R := 2000) (K := 256) x0 x1 x2)) x3) x4
    shapeCasts_S2000x1_S2000x1 broadcasts_S2000x1_S2000x128
  unfold transform activate
  rw [← h4, ← h3, ← h2, ← h1]
  rfl

/-- Where each window's block sits at point `t`: the row windows at block row `t`, the bias and the weights whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem lt_N (t : Fin cfg1.N) : t.val < 25 := lt_of_lt_of_eq t.isLt N_1

/-- Row `r` of block `t` is row `2000 t + r` of the array. -/
def rowOf (t : Fin cfg1.N) (r : Fin 2000) : Fin 50000 := ⟨t.val * 2000 + r.val, by have := lt_N t; have := r.isLt; omega⟩

/-- What point `t` writes back is block `t` of the fused expression of the arrays the kernel finds. -/
theorem flushed_eq (c : Dev nD) (t : Fin cfg1.N) :
    (dat1 V c).flushed 5 t = ((cfg1.win 5).blk t).view.read (Elt Ideal)
      (transform (R := 50000) (K := 256) (N := 128) (φ := .bf16)
        (activate (R := 50000) (K := 256) (V c main_v33) (V c main_v17) (V c main_v18)) (V c main_v21) (V c main_v13)) := by
  show (cfg1.win 5).cut (grid1.coords t) ((dat1 V c).after 5 t) = _
  rw [after1_5]
  unfold out1_5
  rw [View.canon_unit_zero hz]
  simp only [View.ld_unit_zero (S := S2000x256) hz, View.ld_unit_zero (S := S2000x1) hz, View.ld_unit_zero (S := S1x256) hz,
    View.ld_unit_zero (S := S256x128) hz]
  rw [body_eq]
  obtain ⟨e0, e1, e2, e3, e4, e5, e6, e7, e8, e9, e10, e11⟩ := idx_facts t
  have hb : iblk1 V c 2 t = V c main_v18 := by
    funext y
    show V c main_v18 (((cfg1.win 2).blk t).view.emb y) = V c main_v18 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 256 + 1 * (y 1).val = (y 1).val; omega
  have hw : iblk1 V c 3 t = V c main_v21 := by
    funext y
    show V c main_v21 (((cfg1.win 3).blk t).view.emb y) = V c main_v21 y
    refine congrArg _ (funext fun a => Fin.ext ?_)
    match a with
    | ⟨0, _⟩ => show win1_3.index t (0 : Fin 2) * 256 + 1 * (y 0).val = (y 0).val; omega
    | ⟨1, _⟩ => show win1_3.index t (1 : Fin 2) * 128 + 1 * (y 1).val = (y 1).val; omega
  rw [hb, hw]
  funext j
  show transform (R := 2000) (K := 256) (N := 128) (φ := .bf16)
      (activate (R := 2000) (K := 256) (iblk1 V c 0 t) (iblk1 V c 1 t) (V c main_v18)) (V c main_v21) (iblk1 V c 4 t) j
    = transform (R := 50000) (K := 256) (N := 128) (φ := .bf16)
      (activate (R := 50000) (K := 256) (V c main_v33) (V c main_v17) (V c main_v18)) (V c main_v21) (V c main_v13)
      (((cfg1.win 5).blk t).view.emb j)
  have hj : ((cfg1.win 5).blk t).view.emb j = ix2 (n0 := 50000) (n1 := 128) (rowOf t (j 0)) (j 1) := by
    funext a; apply Fin.ext
    match a with
    | ⟨0, _⟩ => show win1_5.index t (0 : Fin 2) * 2000 + 1 * (j 0).val = t.val * 2000 + (j 0).val; omega
    | ⟨1, _⟩ => show win1_5.index t (1 : Fin 2) * 128 + 1 * (j 1).val = (j 1).val; omega
  rw [hj]
  refine fused_block (φ := .bf16) (rowOf t) (V c main_v33) (V c main_v17) (V c main_v18) (V c main_v21) (V c main_v13)
    (iblk1 V c 0 t) (iblk1 V c 1 t) (iblk1 V c 4 t) ?_ ?_ ?_ j
  · intro r k
    show V c main_v33 (((cfg1.win 0).blk t).view.emb (ix2 (n0 := 2000) (n1 := 256) r k)) = _
    refine congrArg _ (funext fun a => Fin.ext ?_)
    match a with
    | ⟨0, _⟩ => show win1_0.index t (0 : Fin 2) * 2000 + 1 * r.val = t.val * 2000 + r.val; omega
    | ⟨1, _⟩ => show win1_0.index t (1 : Fin 2) * 256 + 1 * k.val = k.val; omega
  · intro r
    show V c main_v17 (((cfg1.win 1).blk t).view.emb (ix2 (n0 := 2000) (n1 := 1) r 0)) = _
    refine congrArg _ (funext fun a => Fin.ext ?_)
    match a with
    | ⟨0, _⟩ => show win1_1.index t (0 : Fin 2) * 2000 + 1 * r.val = t.val * 2000 + r.val; omega
    | ⟨1, _⟩ => show win1_1.index t (1 : Fin 2) * 1 + 1 * 0 = 0; omega
  · intro r
    show V c main_v13 (((cfg1.win 4).blk t).view.emb (ix2 (n0 := 2000) (n1 := 1) r 0)) = _
    refine congrArg _ (funext fun a => Fin.ext ?_)
    match a with
    | ⟨0, _⟩ => show win1_4.index t (0 : Fin 2) * 2000 + 1 * r.val = t.val * 2000 + r.val; omega
    | ⟨1, _⟩ => show win1_4.index t (1 : Fin 2) * 1 + 1 * 0 = 0; omega

/-- An index of the output array is in point `t`'s block iff each coordinate is in the block's range. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v34).slice (win1_5.rect t)).set ↔ _
  rw [View.set_slice_whole, Rect.mem_set_unit]
  exact Iff.rfl

/-- Every row lies in the block of the point `row / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, by rw [show cfg1.N = 25 from N_1]; omega⟩
  obtain ⟨e0, e1, e2, e3, e4, e5, e6, e7, e8, e9, e10, e11⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the kernel: the fused expression of the arrays it found. -/
theorem final (c : Dev nD) :
    (dat1 V c).arrAt 5 cfg1.N = transform (R := 50000) (K := 256) (N := 128) (φ := .bf16)
      (activate (R := 50000) (K := 256) (V c main_v33) (V c main_v17) (V c main_v18)) (V c main_v21) (V c main_v13) :=
  (dat1 V c).arrAt_eq_of_cover 5 _ (fun t _ => flushed_eq V c t) cover

end Cert.KernelIdeal.Region1

end
-- ==== Proof.Region2.lean ====
/-
  The third kernel: blocks of 2000 rows of `max (a · d + b, 0)`, and the whole array they make.

  At grid point `t` the kernel reads rows `2000 t … 2000 t + 1999` of the aggregate and of the normaliser column
  and the whole bias row, and writes the activation of those rows to the same rows of its output. The activation is
  computed entry by entry from the entry's own row, so the block written at `t` is block `t` of the activation of the
  whole arrays, and the 25 blocks fill the 50000 rows.
-/
import proofs.«143110_j52853867544720_2_alg».proof.Proof.Gen.KernelIdeal.Frame
import proofs.«143110_j52853867544720_2_alg».proof.Proof.LibGcnNet
import Idealize.ShloMosaic.Lib.Pipeline.Value

set_option maxRecDepth 16384

noncomputable section

namespace Cert.KernelIdeal.Region2

open Cert.KernelIdeal Cert.KernelIdeal.Gen Cert.GcnNet Cert.GcnRows
open Idealize.ShloMosaic Idealize.ShloMosaic.TcCoe Idealize.ShloMosaic.ValueIdx Idealize.ShloMosaic.PlainProduct Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its three blocks is the activation of the blocks. -/
theorem body_eq (x0 : Vec Ideal S2000x128 .f32) (x1 : Vec Ideal S2000x1 .f32) (x2 : Vec Ideal S1x128 .f32) :
    k2_pay1 (F := Ideal) x0 x1 x2 = activate (R := 2000) (K := 128) x0 x1 x2 := by
  have h1 := addf_row (R := 2000) (K := 128) x0 x1 x2 shapeCasts_S2000x1_S2000x1 broadcasts_S2000x1_S2000x128
    shapeCasts_S2000x128_S2000x128 shapeCasts_S1x128_S1x128 broadcasts_S1x128_S2000x128
  have h2 := maximumf_zero (R := 2000) (K := 128) (biased x0 x1 x2)
  unfold activate
  rw [← h2, ← h1]
  rfl

/-- Where each window's block sits at point `t`: the row windows at block row `t`, the bias whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_N (t : Fin cfg2.N) : t.val < 25 := lt_of_lt_of_eq t.isLt N_2

/-- Row `r` of block `t` is row `2000 t + r` of the array. -/
def rowOf (t : Fin cfg2.N) (r : Fin 2000) : Fin 50000 := ⟨t.val * 2000 + r.val, by have := lt_N t; have := r.isLt; omega⟩

/-- What point `t` writes back is block `t` of the activation of the arrays the kernel finds. -/
theorem flushed_eq (c : Dev nD) (t : Fin cfg2.N) :
    (dat2 V c).flushed 3 t = ((cfg2.win 3).blk t).view.read (Elt Ideal)
      (activate (R := 50000) (K := 128) (V c main_v45) (V c main_v17) (V c main_v19)) := by
  show (cfg2.win 3).cut (grid2.coords t) ((dat2 V c).after 3 t) = _
  rw [after2_3]
  unfold out2_3
  rw [View.canon_unit_zero hz]
  simp only [View.ld_unit_zero (S := S2000x128) hz, View.ld_unit_zero (S := S2000x1) hz, View.ld_unit_zero (S := S1x128) hz]
  rw [body_eq]
  obtain ⟨e0, e1, e2, e3, e4, e5, e6, e7⟩ := idx_facts t
  have hb : iblk2 V c 2 t = V c main_v19 := by
    funext y
    show V c main_v19 (((cfg2.win 2).blk t).view.emb y) = V c main_v19 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  rw [hb]
  funext j
  show activate (R := 2000) (K := 128) (iblk2 V c 0 t) (iblk2 V c 1 t) (V c main_v19) j
    = activate (R := 50000) (K := 128) (V c main_v45) (V c main_v17) (V c main_v19) (((cfg2.win 3).blk t).view.emb j)
  have hj : ((cfg2.win 3).blk t).view.emb j = ix2 (n0 := 50000) (n1 := 128) (rowOf t (j 0)) (j 1) := by
    funext a; apply Fin.ext
    match a with
    | ⟨0, _⟩ => show win2_3.index t (0 : Fin 2) * 2000 + 1 * (j 0).val = t.val * 2000 + (j 0).val; omega
    | ⟨1, _⟩ => show win2_3.index t (1 : Fin 2) * 128 + 1 * (j 1).val = (j 1).val; omega
  rw [hj]
  refine activate_block (rowOf t) (V c main_v45) (V c main_v17) (V c main_v19) (iblk2 V c 0 t) (iblk2 V c 1 t) ?_ ?_ j
  · intro r k
    show V c main_v45 (((cfg2.win 0).blk t).view.emb (ix2 (n0 := 2000) (n1 := 128) r k)) = _
    refine congrArg _ (funext fun a => Fin.ext ?_)
    match a with
    | ⟨0, _⟩ => show win2_0.index t (0 : Fin 2) * 2000 + 1 * r.val = t.val * 2000 + r.val; omega
    | ⟨1, _⟩ => show win2_0.index t (1 : Fin 2) * 128 + 1 * k.val = k.val; omega
  · intro r
    show V c main_v17 (((cfg2.win 1).blk t).view.emb (ix2 (n0 := 2000) (n1 := 1) r 0)) = _
    refine congrArg _ (funext fun a => Fin.ext ?_)
    match a with
    | ⟨0, _⟩ => show win2_1.index t (0 : Fin 2) * 2000 + 1 * r.val = t.val * 2000 + r.val; omega
    | ⟨1, _⟩ => show win2_1.index t (1 : Fin 2) * 1 + 1 * 0 = 0; omega

/-- An index of the output array is in point `t`'s block iff each coordinate is in the block's range. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v46).slice (win2_3.rect t)).set ↔ _
  rw [View.set_slice_whole, Rect.mem_set_unit]
  exact Iff.rfl

/-- Every row lies in the block of the point `row / 2000`. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 2000, by rw [show cfg2.N = 25 from N_2]; omega⟩
  obtain ⟨e0, e1, e2, e3, e4, e5, e6, e7⟩ := idx_facts t
  have ht : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The output array after the kernel: the activation of the arrays it found. -/
theorem final (c : Dev nD) :
    (dat2 V c).arrAt 3 cfg2.N = activate (R := 50000) (K := 128) (V c main_v45) (V c main_v17) (V c main_v19) :=
  (dat2 V c).arrAt_eq_of_cover 3 _ (fun t _ => flushed_eq V c t) cover

end Cert.KernelIdeal.Region2

end
-- ==== Proof.LibGcnHost.lean ====
/-
  The host's spelling of a graph-convolution layer's two dense maps, on arrays of extended reals.

  The host multiplies the features by the weights with a general dot product, repeats the normaliser vector first
  along a new unit axis and then along the columns, and multiplies; after the aggregation it scales the rows the same
  way, adds the bias vector repeated along the rows, and takes the maximum with a zero scalar repeated over the array.
  Read at an index these are the `transform` and the `activate` of the layer (`host_transform`, `host_activate`),
  with the vectors seen as a column and as a row. A reshape of a vector to a column or to a row gives the same column
  and row (`reshape_col`, `reshape_row`). All extents are generic.
-/
import proofs.«143110_j52853867544720_2_alg».proof.Proof.LibGcnNet

noncomputable section

namespace Cert.GcnHost

open Idealize.ShloMosaic Idealize.ShloMosaic.ValueIdx Idealize.ShloMosaic.PlainProduct Cert.GcnRows Cert.GcnNet

variable {α : Type} {R K N : ℕ}

/-- A vector repeated along a new unit axis is the vector as a column. -/
theorem bcast_vec_col (v : (⟨1, ![R]⟩ : Shape).Idx → α) (h : (⟨1, ![R]⟩ : Shape).BroadcastsInDim ⟨2, ![R, 1]⟩ ![0])
    (r : Fin R) (u : Fin 1) : broadcastInDim ⟨2, ![R, 1]⟩ ![0] h v (ix2 r u) = v (ix1 r) :=
  broadcastInDim_apply _ h v (ix2 r u) (ix1 r) fun a => by
    match a with
    | ⟨0, _⟩ =>
      show r.val = if R = 1 then 0 else r.val
      split
      · have := r.isLt; omega
      · rfl

/-- A vector laid along a new leading unit axis is the vector as a row. -/
theorem bcast_vec_row (b : (⟨1, ![K]⟩ : Shape).Idx → α) (h : (⟨1, ![K]⟩ : Shape).BroadcastsInDim ⟨2, ![1, K]⟩ ![1])
    (u : Fin 1) (k : Fin K) : broadcastInDim ⟨2, ![1, K]⟩ ![1] h b (ix2 u k) = b (ix1 k) :=
  broadcastInDim_apply _ h b (ix2 u k) (ix1 k) fun a => by
    match a with
    | ⟨0, _⟩ =>
      show k.val = if K = 1 then 0 else k.val
      split
      · have := k.isLt; omega
      · rfl

/-- A column repeated along the columns reads its row's entry. -/
theorem bcast_col_full (s : (⟨2, ![R, 1]⟩ : Shape).Idx → α) (h : (⟨2, ![R, 1]⟩ : Shape).BroadcastsInDim ⟨2, ![R, K]⟩ ![0, 1])
    (r : Fin R) (k : Fin K) : broadcastInDim ⟨2, ![R, K]⟩ ![0, 1] h s (ix2 r k) = s (ix2 r (0 : Fin 1)) :=
  broadcastInDim_apply _ h s (ix2 r k) (ix2 r (0 : Fin 1)) fun a => by
    match a with
    | ⟨0, _⟩ =>
      show r.val = if R = 1 then 0 else r.val
      split
      · have := r.isLt; omega
      · rfl
    | ⟨1, _⟩ => rfl

/-- A row repeated along the rows reads its column's entry. -/
theorem bcast_row_full (b : (⟨2, ![1, K]⟩ : Shape).Idx → α) (h : (⟨2, ![1, K]⟩ : Shape).BroadcastsInDim ⟨2, ![R, K]⟩ ![0, 1])
    (r : Fin R) (k : Fin K) : broadcastInDim ⟨2, ![R, K]⟩ ![0, 1] h b (ix2 r k) = b (ix2 (0 : Fin 1) k) :=
  broadcastInDim_apply _ h b (ix2 r k) (ix2 (0 : Fin 1) k) fun a => by
    match a with
    | ⟨0, _⟩ => rfl
    | ⟨1, _⟩ =>
      show k.val = if K = 1 then 0 else k.val
      split
      · have := k.isLt; omega
      · rfl

/-- A scalar repeated over an array reads the scalar. -/
theorem bcast_scalar (z : (⟨0, ![]⟩ : Shape).Idx → α) (h : (⟨0, ![]⟩ : Shape).BroadcastsInDim ⟨2, ![R, K]⟩ ![])
    (j : (⟨2, ![R, K]⟩ : Shape).Idx) : broadcastInDim ⟨2, ![R, K]⟩ ![] h z j = z (fun a => a.elim0) :=
  broadcastInDim_apply _ h z j (fun a => a.elim0) fun a => a.elim0

/-- The host's `(x · W) · s`: a general dot product with the plain dimension numbers, times the normaliser vector
    repeated to the product's shape. -/
theorem host_transform {φ : FTy} (dd : DotDims ⟨2, ![R, K]⟩ ⟨2, ![K, N]⟩ ⟨2, ![R, N]⟩) (hd : dd = DotDims.plain R K N)
    (x : FVec Ideal ⟨2, ![R, K]⟩ .f32) (w : FVec Ideal ⟨2, ![K, N]⟩ φ) (v : FVec Ideal ⟨1, ![R]⟩ .f32)
    (h1 : (⟨1, ![R]⟩ : Shape).BroadcastsInDim ⟨2, ![R, 1]⟩ ![0]) (h2 : (⟨2, ![R, 1]⟩ : Shape).BroadcastsInDim ⟨2, ![R, N]⟩ ![0, 1]) :
    mulf (Host.dotGeneral (φ₁ := .f32) (φ₂ := φ) dd none x w)
        (broadcastInDim ⟨2, ![R, N]⟩ ![0, 1] h2 (broadcastInDim ⟨2, ![R, 1]⟩ ![0] h1 v))
      = transform (φ := φ) x w (col v) := by
  subst hd
  funext j
  obtain ⟨p, q, rfl⟩ : ∃ (p : Fin R) (q : Fin N), j = ix2 p q := ⟨j 0, j 1, eq_ix2 j⟩
  rw [mulf_apply, bcast_col_full, bcast_vec_col]
  show FloatOps.dotGeneral (DotDims.plain R K N) none .single x w (ix2 p q) * v (ix1 p) = _
  rw [dotGeneral_plain]
  rfl

/-- The host's `max (a · d + b, 0)`. -/
theorem host_activate (a : FVec Ideal ⟨2, ![R, K]⟩ .f32) (v : FVec Ideal ⟨1, ![R]⟩ .f32) (b : FVec Ideal ⟨1, ![K]⟩ .f32)
    (h1 : (⟨1, ![R]⟩ : Shape).BroadcastsInDim ⟨2, ![R, 1]⟩ ![0]) (h2 : (⟨2, ![R, 1]⟩ : Shape).BroadcastsInDim ⟨2, ![R, K]⟩ ![0, 1])
    (h3 : (⟨1, ![K]⟩ : Shape).BroadcastsInDim ⟨2, ![1, K]⟩ ![1]) (h4 : (⟨2, ![1, K]⟩ : Shape).BroadcastsInDim ⟨2, ![R, K]⟩ ![0, 1])
    (h5 : (⟨0, ![]⟩ : Shape).BroadcastsInDim ⟨2, ![R, K]⟩ ![]) :
    maximumf (addf (mulf a (broadcastInDim ⟨2, ![R, K]⟩ ![0, 1] h2 (broadcastInDim ⟨2, ![R, 1]⟩ ![0] h1 v)))
          (broadcastInDim ⟨2, ![R, K]⟩ ![0, 1] h4 (broadcastInDim ⟨2, ![1, K]⟩ ![1] h3 b)))
        (broadcastInDim ⟨2, ![R, K]⟩ ![] h5 (constant (F := Ideal) ⟨0, ![]⟩ .f32 0x00000000#32))
      = activate a (col v) (rowv b) := by
  funext j
  obtain ⟨p, q, rfl⟩ : ∃ (p : Fin R) (q : Fin K), j = ix2 p q := ⟨j 0, j 1, eq_ix2 j⟩
  rw [maximumf_apply, addf_apply, mulf_apply, bcast_col_full, bcast_vec_col, bcast_row_full, bcast_vec_row, bcast_scalar]
  rfl

/-- A vector reshaped to a column is the vector as a column. -/
theorem reshape_col (v : FVec Ideal ⟨1, ![R]⟩ .f32) (h : (⟨1, ![R]⟩ : Shape).ShapeCasts ⟨2, ![R, 1]⟩) :
    shapeCast ⟨2, ![R, 1]⟩ v h = col v := by
  funext j
  obtain ⟨p, u, rfl⟩ : ∃ (p : Fin R) (u : Fin 1), j = ix2 p u := ⟨j 0, j 1, eq_ix2 j⟩
  exact Cert.LibLayout.shapeCast_a_a1_apply v h p u

/-- A vector reshaped to a row is the vector as a row. -/
theorem reshape_row (b : FVec Ideal ⟨1, ![K]⟩ .f32) (h : (⟨1, ![K]⟩ : Shape).ShapeCasts ⟨2, ![1, K]⟩) :
    shapeCast ⟨2, ![1, K]⟩ b h = rowv b := by
  funext j
  obtain ⟨u, q, rfl⟩ : ∃ (u : Fin 1) (q : Fin K), j = ix2 u q := ⟨j 0, j 1, eq_ix2 j⟩
  refine shapeCast_apply b h _ _ ?_
  have hu : u.val = 0 := by omega
  rw [Shape.rowMajor_val_one, Shape.rowMajor_val_two]
  show q.val = u.val * K + q.val
  rw [hu, Nat.zero_mul, Nat.zero_add]

end Cert.GcnHost

end
-- ==== Proof.Graph.lean ====
/-
  The graph part of the layer, in the host's operations: the edge lists with a self loop appended for every node,
  the normalisers `1 / sqrt (max (degree, 1))`, and the neighbourhood sum of the rows of an array.

  `withLoops e` lists the 800000 edge ends followed by the nodes `0 … 49999`. `invSqrtDeg idx` counts, for every node,
  how often it occurs in `idx` (a scatter-add of ones into zeros), takes the maximum with one and the reciprocal
  square root. `agg src dst h` gathers row `src e` of `h` for every edge `e` (an index below zero wraps around by the
  number of nodes first, as array indexing does) and adds it into row `dst e` of a zero array. Both programs apply
  exactly these maps; nothing about them is used beyond that.
-/
import proofs.«143110_j52853867544720_2_alg».proof.Proof.Gen.ReferenceIdeal
import Idealize.ShloMosaic.PureOps.Ideal

noncomputable section

namespace Cert.ReferenceIdeal.Graph

open Cert.ReferenceIdeal Cert.ReferenceIdeal.Gen Idealize.ShloMosaic Idealize.ShloMosaic.TcCoe

/-- The edge ends, then every node once. -/
def withLoops (e : IVec S800000 32) : IVec S850000 32 :=
  concatenate S850000 0 [⟨S800000, e⟩, ⟨S50000, (iotaInDim S50000 32 0)⟩] concatenates_S800000_S50000_S850000_d0

/-- `1 / sqrt (max (number of occurrences in idx, 1))`, per node. -/
def invSqrtDeg (idx : IVec S850000 32) : FVec Ideal S50000 .f32 :=
  Host.rsqrt (F := Ideal) (maximumf (Host.scatterAdd (F := Ideal) scatter_S50000_S850000x1_S850000_n_0_0_1
      (broadcastInDim S50000 ![] bcast_S_S50000 (constant (F := Ideal) S_ .f32 0x00000000#32))
      (broadcastInDim S850000x1 ![0] bcast_S850000_S850000x1_0 idx)
      (broadcastInDim S850000 ![] bcast_S_S850000 (constant (F := Ideal) S_ .f32 0x3F800000#32)))
    (broadcastInDim S50000 ![] bcast_S_S50000 (constant (F := Ideal) S_ .f32 0x3F800000#32)))

/-- The start indices of the gather: an index below zero is moved up by the number of nodes. -/
def starts (idx : IVec S850000 32) : IVec S850000x1 32 :=
  broadcastInDim S850000x1 ![0] bcast_S850000_S850000x1_0
    (select (cmpi .slt idx (broadcastInDim S850000 ![] bcast_S_S850000 (constantI S_ 32 0#32)))
      (addi idx (broadcastInDim S850000 ![] bcast_S_S850000 (constantI S_ 32 50000#32))) idx)

/-- The neighbourhood sum of the rows of a 256-column array. -/
def agg256 (src dst : IVec S850000 32) (h : FVec Ideal S50000x256 .f32) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32))
    (broadcastInDim S850000x1 ![0] bcast_S850000_S850000x1_0 dst)
    (Host.gather gather_S50000x256_S850000x1_S850000x256_1_0_n_n_0_1_1256 h (starts src))

/-- The neighbourhood sum of the rows of a 128-column array. -/
def agg128 (src dst : IVec S850000 32) (h : FVec Ideal S50000x128 .f32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (Host.gather gather_S50000x128_S850000x1_S850000x128_1_0_n_n_0_1_1128 h (starts src))

end Cert.ReferenceIdeal.Graph

end
-- ==== Proof.Fold.lean ====
/-
  The idealized kernel's result, read through its segments.

  The program's buffers are followed from the launch to the return. The first host stretch builds the edge lists with
  their self loops, the two normaliser columns, the two bias rows and the narrowed weights. The first kernel leaves
  the transform of the features; the second stretch gathers and sums its rows over the edges; the second kernel leaves
  the activation of that aggregate, transformed by the second weights; the third stretch gathers and sums again; the
  third kernel leaves the activation of the second aggregate, which is the result. A buffer a segment does not write
  keeps its contents through it. Composed, the result is the two-layer network of the arguments.
-/
import proofs.«143110_j52853867544720_2_alg».proof.Proof.Gen.KernelIdeal.Frame
import proofs.«143110_j52853867544720_2_alg».proof.Proof.Region0
import proofs.«143110_j52853867544720_2_alg».proof.Proof.Region1
import proofs.«143110_j52853867544720_2_alg».proof.Proof.Region2
import proofs.«143110_j52853867544720_2_alg».proof.Proof.LibGcnHost
import proofs.«143110_j52853867544720_2_alg».proof.Proof.Graph
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.GcnNet Cert.GcnRows Cert.GcnHost Cert.ReferenceIdeal.Graph

variable (m : (ℓ : Loc nD τ sig) → Buf (Elt Ideal) ℓ) (ρ : Dev nD → PrngReg)

/-! ## After the first host stretch -/

theorem W1_arg0 (c : Dev nD) : W1 m ρ c (Proc.devRef .tc main_arg0) = (m ((c : Thread nD τ).loc main_arg0)) := by
  show StableHlo.after hostOps0 (W0 m ρ c) (Proc.devRef .tc main_arg0) = _
  after_results

theorem W1_v1 (c : Dev nD) : W1 m ρ c (Proc.devRef .tc main_v1) = (withLoops (m ((c : Thread nD τ).loc main_arg1))) := by
  show StableHlo.after hostOps0 (W0 m ρ c) (Proc.devRef .tc main_v1) = _
  after_results
  rfl

theorem W1_v2 (c : Dev nD) : W1 m ρ c (Proc.devRef .tc main_v2) = (withLoops (m ((c : Thread nD τ).loc main_arg2))) := by
  show StableHlo.after hostOps0 (W0 m ρ c) (Proc.devRef .tc main_v2) = _
  after_results
  rfl

theorem W1_v13 (c : Dev nD) : W1 m ρ c (Proc.devRef .tc main_v13) = (col (invSqrtDeg (withLoops (m ((c : Thread nD τ).loc main_arg1))))) := by
  have h : W1 m ρ c (Proc.devRef .tc main_v13) = shapeCast ⟨2, ![50000, 1]⟩ (invSqrtDeg (withLoops (m ((c : Thread nD τ).loc main_arg1)))) shapeCasts_S50000_S50000x1 := by
    show StableHlo.after hostOps0 (W0 m ρ c) (Proc.devRef .tc main_v13) = _
    after_results
    rfl
  exact h.trans (reshape_col (R := 50000) _ _)

theorem W1_v17 (c : Dev nD) : W1 m ρ c (Proc.devRef .tc main_v17) = (col (invSqrtDeg (withLoops (m ((c : Thread nD τ).loc main_arg2))))) := by
  have h : W1 m ρ c (Proc.devRef .tc main_v17) = shapeCast ⟨2, ![50000, 1]⟩ (invSqrtDeg (withLoops (m ((c : Thread nD τ).loc main_arg2)))) shapeCasts_S50000_S50000x1 := by
    show StableHlo.after hostOps0 (W0 m ρ c) (Proc.devRef .tc main_v17) = _
    after_results
    rfl
  exact h.trans (reshape_col (R := 50000) _ _)

theorem W1_v18 (c : Dev nD) : W1 m ρ c (Proc.devRef .tc main_v18) = (rowv (m ((c : Thread nD τ).loc main_arg4))) := by
  have h : W1 m ρ c (Proc.devRef .tc main_v18) = shapeCast ⟨2, ![1, 256]⟩ (m ((c : Thread nD τ).loc main_arg4)) shapeCasts_S256_S1x256 := by
    show StableHlo.after hostOps0 (W0 m ρ c) (Proc.devRef .tc main_v18) = _
    after_results
    rfl
  exact h.trans (reshape_row (K := 256) _ _)

theorem W1_v19 (c : Dev nD) : W1 m ρ c (Proc.devRef .tc main_v19) = (rowv (m ((c : Thread nD τ).loc main_arg6))) := by
  have h : W1 m ρ c (Proc.devRef .tc main_v19) = shapeCast ⟨2, ![1, 128]⟩ (m ((c : Thread nD τ).loc main_arg6)) shapeCasts_S128_S1x128 := by
    show StableHlo.after hostOps0 (W0 m ρ c) (Proc.devRef .tc main_v19) = _
    after_results
    rfl
  exact h.trans (reshape_row (K := 128) _ _)

theorem W1_v20 (c : Dev nD) : W1 m ρ c (Proc.devRef .tc main_v20) = (truncf (F := Ideal) .bf16 ((m ((c : Thread nD τ).loc main_arg3)) : FVec Ideal S256x256 .f32) bitsLt_bf16_f32) := by
  show StableHlo.after hostOps0 (W0 m ρ c) (Proc.devRef .tc main_v20) = _
  after_results

theorem W1_v21 (c : Dev nD) : W1 m ρ c (Proc.devRef .tc main_v21) = (truncf (F := Ideal) .bf16 ((m ((c : Thread nD τ).loc main_arg5)) : FVec Ideal S256x128 .f32) bitsLt_bf16_f32) := by
  show StableHlo.after hostOps0 (W0 m ρ c) (Proc.devRef .tc main_v21) = _
  after_results

/-! ## After the first kernel -/

theorem W2_v22 (c : Dev nD) : W2 m ρ c (Proc.devRef .tc main_v22) = (transform (R := 50000) (K := 256) (N := 256) (φ := .bf16) (m ((c : Thread nD τ).loc main_arg0)) (truncf (F := Ideal) .bf16 ((m ((c : Thread nD τ).loc main_arg3)) : FVec Ideal S256x256 .f32) bitsLt_bf16_f32) (col (invSqrtDeg (withLoops (m ((c : Thread nD τ).loc main_arg1)))))) := by
  refine (W2_arr m ρ c 3).trans ((Region0.final (V1 m ρ) c).trans ?_)
  rw [show V1 m ρ c main_arg0 = _ from W1_arg0 m ρ c, show V1 m ρ c main_v20 = _ from W1_v20 m ρ c,
    show V1 m ρ c main_v13 = _ from W1_v13 m ρ c]

theorem W2_v1 (c : Dev nD) : W2 m ρ c (Proc.devRef .tc main_v1) = (withLoops (m ((c : Thread nD τ).loc main_arg1))) :=
  (W2_of_ne m ρ c main_v1 (by decide)).trans (W1_v1 m ρ c)

theorem W2_v2 (c : Dev nD) : W2 m ρ c (Proc.devRef .tc main_v2) = (withLoops (m ((c : Thread nD τ).loc main_arg2))) :=
  (W2_of_ne m ρ c main_v2 (by decide)).trans (W1_v2 m ρ c)

theorem W2_v13 (c : Dev nD) : W2 m ρ c (Proc.devRef .tc main_v13) = (col (invSqrtDeg (withLoops (m ((c : Thread nD τ).loc main_arg1))))) :=
  (W2_arr m ρ c 2).trans ((((dat0 (V1 m ρ) c).arrAt_in 2 rfl _).trans (A_eq0 (V1 m ρ) c 2)).trans (W1_v13 m ρ c))

theorem W2_v17 (c : Dev nD) : W2 m ρ c (Proc.devRef .tc main_v17) = (col (invSqrtDeg (withLoops (m ((c : Thread nD τ).loc main_arg2))))) :=
  (W2_of_ne m ρ c main_v17 (by decide)).trans (W1_v17 m ρ c)

theorem W2_v18 (c : Dev nD) : W2 m ρ c (Proc.devRef .tc main_v18) = (rowv (m ((c : Thread nD τ).loc main_arg4))) :=
  (W2_of_ne m ρ c main_v18 (by decide)).trans (W1_v18 m ρ c)

theorem W2_v19 (c : Dev nD) : W2 m ρ c (Proc.devRef .tc main_v19) = (rowv (m ((c : Thread nD τ).loc main_arg6))) :=
  (W2_of_ne m ρ c main_v19 (by decide)).trans (W1_v19 m ρ c)

theorem W2_v21 (c : Dev nD) : W2 m ρ c (Proc.devRef .tc main_v21) = (truncf (F := Ideal) .bf16 ((m ((c : Thread nD τ).loc main_arg5)) : FVec Ideal S256x128 .f32) bitsLt_bf16_f32) :=
  (W2_of_ne m ρ c main_v21 (by decide)).trans (W1_v21 m ρ c)

/-! ## After the second host stretch -/

theorem W3_v33_of (c : Dev nD) (h : FVec Ideal S50000x256 .f32) (hh : W2 m ρ c (Proc.devRef .tc main_v22) = h) :
    W3 m ρ c (Proc.devRef .tc main_v33) = agg256 (withLoops (m ((c : Thread nD τ).loc main_arg1))) (withLoops (m ((c : Thread nD τ).loc main_arg2))) h := by
  show StableHlo.after hostOps1 (W2 m ρ c) (Proc.devRef .tc main_v33) = _
  after_results
  rw [hh, W2_v1 m ρ c, W2_v2 m ρ c]
  rfl

theorem W3_v33 (c : Dev nD) : W3 m ρ c (Proc.devRef .tc main_v33) = (agg256 (withLoops (m ((c : Thread nD τ).loc main_arg1))) (withLoops (m ((c : Thread nD τ).loc main_arg2))) (transform (R := 50000) (K := 256) (N := 256) (φ := .bf16) (m ((c : Thread nD τ).loc main_arg0)) (truncf (F := Ideal) .bf16 ((m ((c : Thread nD τ).loc main_arg3)) : FVec Ideal S256x256 .f32) bitsLt_bf16_f32) (col (invSqrtDeg (withLoops (m ((c : Thread nD τ).loc main_arg1))))))) :=
  W3_v33_of m ρ c _ (W2_v22 m ρ c)

theorem W3_v1 (c : Dev nD) : W3 m ρ c (Proc.devRef .tc main_v1) = (withLoops (m ((c : Thread nD τ).loc main_arg1))) := by
  show StableHlo.after hostOps1 (W2 m ρ c) (Proc.devRef .tc main_v1) = _
  after_results
  exact W2_v1 m ρ c

theorem W3_v2 (c : Dev nD) : W3 m ρ c (Proc.devRef .tc main_v2) = (withLoops (m ((c : Thread nD τ).loc main_arg2))) := by
  show StableHlo.after hostOps1 (W2 m ρ c) (Proc.devRef .tc main_v2) = _
  after_results
  exact W2_v2 m ρ c

theorem W3_v13 (c : Dev nD) : W3 m ρ c (Proc.devRef .tc main_v13) = (col (invSqrtDeg (withLoops (m ((c : Thread nD τ).loc main_arg1))))) := by
  show StableHlo.after hostOps1 (W2 m ρ c) (Proc.devRef .tc main_v13) = _
  after_results
  exact W2_v13 m ρ c

theorem W3_v17 (c : Dev nD) : W3 m ρ c (Proc.devRef .tc main_v17) = (col (invSqrtDeg (withLoops (m ((c : Thread nD τ).loc main_arg2))))) := by
  show StableHlo.after hostOps1 (W2 m ρ c) (Proc.devRef .tc main_v17) = _
  after_results
  exact W2_v17 m ρ c

theorem W3_v18 (c : Dev nD) : W3 m ρ c (Proc.devRef .tc main_v18) = (rowv (m ((c : Thread nD τ).loc main_arg4))) := by
  show StableHlo.after hostOps1 (W2 m ρ c) (Proc.devRef .tc main_v18) = _
  after_results
  exact W2_v18 m ρ c

theorem W3_v19 (c : Dev nD) : W3 m ρ c (Proc.devRef .tc main_v19) = (rowv (m ((c : Thread nD τ).loc main_arg6))) := by
  show StableHlo.after hostOps1 (W2 m ρ c) (Proc.devRef .tc main_v19) = _
  after_results
  exact W2_v19 m ρ c

theorem W3_v21 (c : Dev nD) : W3 m ρ c (Proc.devRef .tc main_v21) = (truncf (F := Ideal) .bf16 ((m ((c : Thread nD τ).loc main_arg5)) : FVec Ideal S256x128 .f32) bitsLt_bf16_f32) := by
  show StableHlo.after hostOps1 (W2 m ρ c) (Proc.devRef .tc main_v21) = _
  after_results
  exact W2_v21 m ρ c

/-! ## After the second kernel -/

theorem W4_v34 (c : Dev nD) : W4 m ρ c (Proc.devRef .tc main_v34) = (transform (R := 50000) (K := 256) (N := 128) (φ := .bf16) (activate (R := 50000) (K := 256) (agg256 (withLoops (m ((c : Thread nD τ).loc main_arg1))) (withLoops (m ((c : Thread nD τ).loc main_arg2))) (transform (R := 50000) (K := 256) (N := 256) (φ := .bf16) (m ((c : Thread nD τ).loc main_arg0)) (truncf (F := Ideal) .bf16 ((m ((c : Thread nD τ).loc main_arg3)) : FVec Ideal S256x256 .f32) bitsLt_bf16_f32) (col (invSqrtDeg (withLoops (m ((c : Thread nD τ).loc main_arg1))))))) (col (invSqrtDeg (withLoops (m ((c : Thread nD τ).loc main_arg2))))) (rowv (m ((c : Thread nD τ).loc main_arg4)))) (truncf (F := Ideal) .bf16 ((m ((c : Thread nD τ).loc main_arg5)) : FVec Ideal S256x128 .f32) bitsLt_bf16_f32) (col (invSqrtDeg (withLoops (m ((c : Thread nD τ).loc main_arg1)))))) := by
  refine (W4_arr m ρ c 5).trans ((Region1.final (V3 m ρ) c).trans ?_)
  rw [show V3 m ρ c main_v33 = _ from W3_v33 m ρ c, show V3 m ρ c main_v17 = _ from W3_v17 m ρ c,
    show V3 m ρ c main_v18 = _ from W3_v18 m ρ c, show V3 m ρ c main_v21 = _ from W3_v21 m ρ c,
    show V3 m ρ c main_v13 = _ from W3_v13 m ρ c]

theorem W4_v1 (c : Dev nD) : W4 m ρ c (Proc.devRef .tc main_v1) = (withLoops (m ((c : Thread nD τ).loc main_arg1))) :=
  (W4_of_ne m ρ c main_v1 (by decide)).trans (W3_v1 m ρ c)

theorem W4_v2 (c : Dev nD) : W4 m ρ c (Proc.devRef .tc main_v2) = (withLoops (m ((c : Thread nD τ).loc main_arg2))) :=
  (W4_of_ne m ρ c main_v2 (by decide)).trans (W3_v2 m ρ c)

theorem W4_v17 (c : Dev nD) : W4 m ρ c (Proc.devRef .tc main_v17) = (col (invSqrtDeg (withLoops (m ((c : Thread nD τ).loc main_arg2))))) :=
  (W4_arr m ρ c 1).trans ((((dat1 (V3 m ρ) c).arrAt_in 1 rfl _).trans (A_eq1 (V3 m ρ) c 1)).trans (W3_v17 m ρ c))

theorem W4_v19 (c : Dev nD) : W4 m ρ c (Proc.devRef .tc main_v19) = (rowv (m ((c : Thread nD τ).loc main_arg6))) :=
  (W4_of_ne m ρ c main_v19 (by decide)).trans (W3_v19 m ρ c)

/-! ## After the third host stretch -/

theorem W5_v45_of (c : Dev nD) (h : FVec Ideal S50000x128 .f32) (hh : W4 m ρ c (Proc.devRef .tc main_v34) = h) :
    W5 m ρ c (Proc.devRef .tc main_v45) = agg128 (withLoops (m ((c : Thread nD τ).loc main_arg1))) (withLoops (m ((c : Thread nD τ).loc main_arg2))) h := by
  show StableHlo.after hostOps2 (W4 m ρ c) (Proc.devRef .tc main_v45) = _
  after_results
  rw [hh, W4_v1 m ρ c, W4_v2 m ρ c]
  rfl

theorem W5_v45 (c : Dev nD) : W5 m ρ c (Proc.devRef .tc main_v45) = (agg128 (withLoops (m ((c : Thread nD τ).loc main_arg1))) (withLoops (m ((c : Thread nD τ).loc main_arg2))) (transform (R := 50000) (K := 256) (N := 128) (φ := .bf16) (activate (R := 50000) (K := 256) (agg256 (withLoops (m ((c : Thread nD τ).loc main_arg1))) (withLoops (m ((c : Thread nD τ).loc main_arg2))) (transform (R := 50000) (K := 256) (N := 256) (φ := .bf16) (m ((c : Thread nD τ).loc main_arg0)) (truncf (F := Ideal) .bf16 ((m ((c : Thread nD τ).loc main_arg3)) : FVec Ideal S256x256 .f32) bitsLt_bf16_f32) (col (invSqrtDeg (withLoops (m ((c : Thread nD τ).loc main_arg1))))))) (col (invSqrtDeg (withLoops (m ((c : Thread nD τ).loc main_arg2))))) (rowv (m ((c : Thread nD τ).loc main_arg4)))) (truncf (F := Ideal) .bf16 ((m ((c : Thread nD τ).loc main_arg5)) : FVec Ideal S256x128 .f32) bitsLt_bf16_f32) (col (invSqrtDeg (withLoops (m ((c : Thread nD τ).loc main_arg1))))))) :=
  W5_v45_of m ρ c _ (W4_v34 m ρ c)

theorem W5_v17 (c : Dev nD) : W5 m ρ c (Proc.devRef .tc main_v17) = (col (invSqrtDeg (withLoops (m ((c : Thread nD τ).loc main_arg2))))) := by
  show StableHlo.after hostOps2 (W4 m ρ c) (Proc.devRef .tc main_v17) = _
  after_results
  exact W4_v17 m ρ c

theorem W5_v19 (c : Dev nD) : W5 m ρ c (Proc.devRef .tc main_v19) = (rowv (m ((c : Thread nD τ).loc main_arg6))) := by
  show StableHlo.after hostOps2 (W4 m ρ c) (Proc.devRef .tc main_v19) = _
  after_results
  exact W4_v19 m ρ c

/-! ## After the third kernel: the result -/

theorem W6_v46 (c : Dev nD) : W6 m ρ c (Proc.devRef .tc main_v46) = (activate (R := 50000) (K := 128) (agg128 (withLoops (m ((c : Thread nD τ).loc main_arg1))) (withLoops (m ((c : Thread nD τ).loc main_arg2))) (transform (R := 50000) (K := 256) (N := 128) (φ := .bf16) (activate (R := 50000) (K := 256) (agg256 (withLoops (m ((c : Thread nD τ).loc main_arg1))) (withLoops (m ((c : Thread nD τ).loc main_arg2))) (transform (R := 50000) (K := 256) (N := 256) (φ := .bf16) (m ((c : Thread nD τ).loc main_arg0)) (truncf (F := Ideal) .bf16 ((m ((c : Thread nD τ).loc main_arg3)) : FVec Ideal S256x256 .f32) bitsLt_bf16_f32) (col (invSqrtDeg (withLoops (m ((c : Thread nD τ).loc main_arg1))))))) (col (invSqrtDeg (withLoops (m ((c : Thread nD τ).loc main_arg2))))) (rowv (m ((c : Thread nD τ).loc main_arg4)))) (truncf (F := Ideal) .bf16 ((m ((c : Thread nD τ).loc main_arg5)) : FVec Ideal S256x128 .f32) bitsLt_bf16_f32) (col (invSqrtDeg (withLoops (m ((c : Thread nD τ).loc main_arg1))))))) (col (invSqrtDeg (withLoops (m ((c : Thread nD τ).loc main_arg2))))) (rowv (m ((c : Thread nD τ).loc main_arg6)))) := by
  refine (W6_arr m ρ c 3).trans ((Region2.final (V5 m ρ) c).trans ?_)
  rw [show V5 m ρ c main_v45 = _ from W5_v45 m ρ c, show V5 m ρ c main_v17 = _ from W5_v17 m ρ c,
    show V5 m ρ c main_v19 = _ from W5_v19 m ρ c]

end Cert.KernelIdeal.Fold

end
-- ==== Proof.RefSide.lean ====
/-
  The reference computes the two-layer network.

  Its run ends with the result at one long term of the arguments. Read from the inside out, that term is: the
  features times the first weights, rows scaled by the source normaliser; the neighbourhood sum; rows scaled by the
  destination normaliser, the first bias added, positive part; times the second weights, rows scaled; the
  neighbourhood sum again; scaled, the second bias added, positive part. The four dense steps are the host's
  spellings of `transform` and `activate`, and the graph steps are the maps of the graph part, so the term is `net`.
-/
import proofs.«143110_j52853867544720_2_alg».proof.Proof.Gen.ReferenceIdeal.Run
import proofs.«143110_j52853867544720_2_alg».proof.Proof.LibGcnHost
import proofs.«143110_j52853867544720_2_alg».proof.Proof.Graph

set_option maxRecDepth 16384

noncomputable section

namespace Cert.ReferenceIdeal.RefValue

open Cert.ReferenceIdeal Cert.ReferenceIdeal.Gen Cert.ReferenceIdeal.Value Cert.ReferenceIdeal.Graph
open Idealize.ShloMosaic Idealize.ShloMosaic.TcCoe Idealize.SL.Sem
open Cert.GcnNet Cert.GcnRows Cert.GcnHost

/-- The network of the seven argument arrays, with the graph part in the host's operations. -/
def netOf (a0 : (⟨S50000x256, .f32⟩ : BufTy).Contents (Elt Ideal)) (a1 a2 : (⟨S800000, .i32⟩ : BufTy).Contents (Elt Ideal)) (a3 : (⟨S256x256, .f32⟩ : BufTy).Contents (Elt Ideal))
    (a4 : (⟨S256, .f32⟩ : BufTy).Contents (Elt Ideal)) (a5 : (⟨S256x128, .f32⟩ : BufTy).Contents (Elt Ideal)) (a6 : (⟨S128, .f32⟩ : BufTy).Contents (Elt Ideal)) : (⟨S50000x128, .f32⟩ : BufTy).Contents (Elt Ideal) :=
  net (R := 50000) (B := 256) (K := 256) (N := 128) (φ₀ := .f32) (φ₁ := .f32)
    (agg256 (withLoops a1) (withLoops a2)) (agg128 (withLoops a1) (withLoops a2))
    (col (invSqrtDeg (withLoops a1))) (col (invSqrtDeg (withLoops a2))) a0 a3 (rowv a4) a5 (rowv a6)

/-- The reference's result term is the network of its arguments. -/
theorem res_eq (m : (ℓ : Loc nD τ sig) → Buf (Elt Ideal) ℓ) (c : Dev nD) :
    res_main_v57 (F := Ideal) m c
      = netOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold res_main_v57 netOf net
  rw [host_transform (R := 50000) (K := 256) (N := 256) (φ := .f32) dot_S50000x256_S256x256_S50000x256_1_0_0_1_n_n rfl,
    host_activate (R := 50000) (K := 256),
    host_transform (R := 50000) (K := 256) (N := 128) (φ := .f32) dot_S50000x256_S256x128_S50000x128_1_0_0_1_n_n rfl,
    host_activate (R := 50000) (K := 128)]
  rfl

end Cert.ReferenceIdeal.RefValue

end
-- ==== Proof.lean ====
/-
  The certificate: a two-layer graph convolution computed by three row-tiled kernels, against its array reference.

  Both programs compute, for the features `x`, the edge lists `src`, `dst` (a self loop appended for every node),
  weights `W0`, `W1` and biases `b0`, `b1`:
      s = 1 / sqrt (max (out-degree, 1)),   d = 1 / sqrt (max (in-degree, 1)),
      layer (h, W, b) = max (sum over the edges into a node of ((h · W) · s) at the edge's source, times d, plus b, 0),
      result = layer (layer (x, W0, b0), W1, b1).
  The kernel computes `(h · W) · s` and `max (a · d + b, 0)` on blocks of 2000 rows, with its matrix products on narrowed
  operands into a wide accumulator, and leaves the sums over the edges to the same gather and scatter-add the reference
  uses. On the extended reals a change of format is the identity and a product of rows by columns is one finite sum
  however it is scheduled, and every dense step is computed row by row, so the 25 blocks of each kernel make the same
  array as the reference's whole-array operations; the graph steps are the same maps applied to equal arrays.
  No sum is rearranged against a product, so the inputs' finiteness is not used.

  The three frames are the generated ones (the reference's is its generated run with the result dropped); the ideal
  pass rewrote nothing, so there is nothing to preserve; the equality of the results joins the kernel's run, read
  through its segments, and the reference's run at the one function `netOf` of the arguments.
-/
import proofs.«143110_j52853867544720_2_alg».proof.Defs
import proofs.«143110_j52853867544720_2_alg».proof.Proof.Gen.Kernel.Frame
import proofs.«143110_j52853867544720_2_alg».proof.Proof.Gen.KernelIdeal.Frame
import proofs.«143110_j52853867544720_2_alg».proof.Proof.Gen.ReferenceIdeal.Run
import proofs.«143110_j52853867544720_2_alg».proof.Proof.Gen.Pre_finite_inputs
import proofs.«143110_j52853867544720_2_alg».proof.Proof.KernelRun
import proofs.«143110_j52853867544720_2_alg».proof.Proof.Fold
import proofs.«143110_j52853867544720_2_alg».proof.Proof.RefSide

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result, read through its segments, is the network of its arguments: the narrowing of the weights
    changes nothing on the extended reals. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W6 m ρ c (Proc.devRef .tc Cert.KernelIdeal.main_v46)
      = Cert.ReferenceIdeal.RefValue.netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  (Cert.KernelIdeal.Fold.W6_v46 m ρ c).trans rfl

/-- From memories that agree on the arguments both programs end with the network of the arguments as their result. -/
theorem algebraic : Cert.algebraic_KernelIdeal_ReferenceIdeal := by
  intro m ρ m' ρ' _ hagree
  refine ⟨fun c => Cert.ReferenceIdeal.RefValue.netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (kernel_result m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
